-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x3 : Shape := ⟨2, ![3, 3]⟩
abbrev S_ : Shape := ⟨0, ![]⟩

class Facts : Prop where
  bcast_S_S3x3 : S_.BroadcastsInDim S3x3 (![] : Fin 0 → Fin S3x3.rank)
  reducesTo_S3x3_S_d0_1 : S3x3.ReducesTo [0, 1] S_
  h_S_ : 0 < S_.numel

variable [Facts]

def fn_part1 {F : FTy → Type} [FloatOps F] (main_arg4 : FVec F S3x3 .f32) (main_arg5 : FVec F S3x3 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3x3 .f32 := Host.absf main_arg4
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3x3 .f32 := Host.absf main_arg5
  let main_cst_8 : FVec F S_ .f32 := constant S_ .f32 0x7F800000#32
  let main_v25 : FVec F S3x3 .f32 := broadcastInDim S3x3 ![] bcast_S_S3x3 main_cst_8
  let main_v26 : IVec S3x3 1 := cmpf .olt main_v24 main_v25
  let main_c_9 : IVec S_ 1 := constantI S_ 1 1#1
  let main_v27 : IVec S_ 1 := (fun x v => Host.reduce IntOp.andi x v reducesTo_S3x3_S_d0_1 h_S_) main_v26 main_c_9
  let main_v28 : IVec S_ 1 := andi main_v23 main_v27
  main_v28

def fn {F : FTy → Type} [FloatOps F] (main_arg0 : FVec F S3x3 .f32) (main_arg1 : FVec F S3x3 .f32) (main_arg2 : FVec F S3x3 .f32) (main_arg3 : FVec F S3x3 .f32) (main_arg4 : FVec F S3x3 .f32) (main_arg5 : FVec F S3x3 .f32) : IVec S_ 1 :=
  let main_v0 : FVec F S3x3 .f32 := Host.absf main_arg0
  let main_cst : FVec F S_ .f32 := constant S_ .f32 0x7F800000#32
  let main_v1 : FVec F S3x3 .f32 := broadcastInDim S3x3 ![] bcast_S_S3x3 main_cst
  let main_v2 : IVec S3x3 1 := cmpf .olt main_v0 main_v1
  let main_c : IVec S_ 1 := constantI S_ 1 1#1
  let main_v3 : IVec S_ 1 := (fun x v => Host.reduce IntOp.andi x v reducesTo_S3x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3x3 .f32 := Host.absf main_arg2
  let main_cst_2 : FVec F S_ .f32 := constant S_ .f32 0x7F800000#32
  let main_v10 : FVec F S3x3 .f32 := broadcastInDim S3x3 ![] bcast_S_S3x3 main_cst_2
  let main_v11 : IVec S3x3 1 := cmpf .olt main_v9 main_v10
  let main_c_3 : IVec S_ 1 := constantI S_ 1 1#1
  let main_v12 : IVec S_ 1 := (fun x v => Host.reduce IntOp.andi x v reducesTo_S3x3_S_d0_1 h_S_) main_v11 main_c_3
  let main_v13 : IVec S_ 1 := andi main_v8 main_v12
  let main_v14 : FVec F S3x3 .f32 := Host.absf main_arg3
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg4 main_arg5 main_v13 main_v16
-- ==== Kernel.lean ====
abbrev S3x3 : Shape := ⟨2, ![3, 3]⟩
abbrev S1x3x3 : Shape := ⟨3, ![1, 3, 3]⟩
abbrev S6x3x3 : Shape := ⟨3, ![6, 3, 3]⟩
abbrev S3x1 : Shape := ⟨2, ![3, 1]⟩
abbrev S1x3 : Shape := ⟨2, ![1, 3]⟩

abbrev nBuf : Space → Nat
  | .hbm => 14
  | .vmem => 2
  | .smem => 0
  | _ => 0

abbrev bufTy : (tb : Table) → Fin (tcTables nBuf tb) → BufTy
  | .hbm, ⟨0, _⟩ => ⟨S3x3, .f32⟩
  | .hbm, ⟨1, _⟩ => ⟨S3x3, .f32⟩
  | .hbm, ⟨2, _⟩ => ⟨S3x3, .f32⟩
  | .hbm, ⟨3, _⟩ => ⟨S3x3, .f32⟩
  | .hbm, ⟨4, _⟩ => ⟨S3x3, .f32⟩
  | .hbm, ⟨5, _⟩ => ⟨S3x3, .f32⟩
  | .hbm, ⟨6, _⟩ => ⟨S1x3x3, .f32⟩
  | .hbm, ⟨7, _⟩ => ⟨S1x3x3, .f32⟩
  | .hbm, ⟨8, _⟩ => ⟨S1x3x3, .f32⟩
  | .hbm, ⟨9, _⟩ => ⟨S1x3x3, .f32⟩
  | .hbm, ⟨10, _⟩ => ⟨S1x3x3, .f32⟩
  | .hbm, ⟨11, _⟩ => ⟨S1x3x3, .f32⟩
  | .hbm, ⟨12, _⟩ => ⟨S6x3x3, .f32⟩
  | .hbm, ⟨13, _⟩ => ⟨S3x3, .f32⟩
  | .local _ .vmem, ⟨0, _⟩ => ⟨S6x3x3, .f32⟩
  | .local _ .vmem, ⟨1, _⟩ => ⟨S3x3, .f32⟩
  | _, _ => ⟨S3x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  bcast_S3x3_S1x3x3_1_2 : S3x3.BroadcastsInDim S1x3x3 (![1, 2] : Fin 2 → Fin S1x3x3.rank)
  concatenates_S1x3x3_S1x3x3_S1x3x3_S1x3x3_S1x3x3_S1x3x3_S6x3x3_d0 : Shape.Concatenates [S1x3x3, S1x3x3, S1x3x3, S1x3x3, S1x3x3, S1x3x3] S6x3x3 0
  inb_S6x3x3_S1x3x3_0_0_0 : ∀ a, (![0, 0, 0] : Fin 3 → Nat) a + S1x3x3.size a ≤ S6x3x3.size a
  h_S1x3x3 : 0 < S1x3x3.numel
  shapeCasts_S1x3x3_S3x3 : S1x3x3.ShapeCasts S3x3
  inb_S6x3x3_S1x3x3_1_0_0 : ∀ a, (![1, 0, 0] : Fin 3 → Nat) a + S1x3x3.size a ≤ S6x3x3.size a
  inb_S6x3x3_S1x3x3_2_0_0 : ∀ a, (![2, 0, 0] : Fin 3 → Nat) a + S1x3x3.size a ≤ S6x3x3.size a
  inb_S6x3x3_S1x3x3_3_0_0 : ∀ a, (![3, 0, 0] : Fin 3 → Nat) a + S1x3x3.size a ≤ S6x3x3.size a
  inb_S6x3x3_S1x3x3_4_0_0 : ∀ a, (![4, 0, 0] : Fin 3 → Nat) a + S1x3x3.size a ≤ S6x3x3.size a
  inb_S6x3x3_S1x3x3_5_0_0 : ∀ a, (![5, 0, 0] : Fin 3 → Nat) a + S1x3x3.size a ≤ S6x3x3.size a
  slices_S3x3_o0_0_S3x1 : S3x3.Slices ![0, 0] S3x1
  slices_S3x3_o0_0_S1x3 : S3x3.Slices ![0, 0] S1x3
  broadcasts_S3x1_S3x3 : S3x1.Broadcasts S3x3
  broadcasts_S1x3_S3x3 : S1x3.Broadcasts S3x3
  slices_S3x3_o0_1_S3x1 : S3x3.Slices ![0, 1] S3x1
  slices_S3x3_o1_0_S1x3 : S3x3.Slices ![1, 0] S1x3
  slices_S3x3_o0_2_S3x1 : S3x3.Slices ![0, 2] S3x1
  slices_S3x3_o2_0_S1x3 : S3x3.Slices ![2, 0] S1x3
  inb_S3x3_S3x3_0_0 : ∀ a, (![0, 0] : Fin 2 → Nat) a + S3x3.size a ≤ S3x3.size a
  h_S3x3 : 0 < S3x3.numel
  hstage0_0 : ∀ j, (stage0_0 j).IsWhole
  hstage0_1 : ∀ j, (stage0_1 j).IsWhole

variable [Facts₀]

abbrev win0_0 : Pipeline.Window sig grid0 :=
  Pipeline.Window.whole (Memref.whole main_v6) false false (stage0_0 0) (sem0_0 0) (Memref.isWhole_whole _) (hstage0_0 0)

abbrev win0_1 : Pipeline.Window sig grid0 :=
  Pipeline.Window.whole (Memref.whole main_v7) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3x3 : Shape := ⟨2, ![3, 3]⟩

abbrev nBuf : Space → Nat
  | .hbm => 19
  | .vmem => 0
  | .smem => 0
  | _ => 0

abbrev bufTy : (tb : Table) → Fin (tcTables nBuf tb) → BufTy
  | .hbm, ⟨0, _⟩ => ⟨S3x3, .f32⟩
  | .hbm, ⟨1, _⟩ => ⟨S3x3, .f32⟩
  | .hbm, ⟨2, _⟩ => ⟨S3x3, .f32⟩
  | .hbm, ⟨3, _⟩ => ⟨S3x3, .f32⟩
  | .hbm, ⟨4, _⟩ => ⟨S3x3, .f32⟩
  | .hbm, ⟨5, _⟩ => ⟨S3x3, .f32⟩
  | .hbm, ⟨6, _⟩ => ⟨S3x3, .f32⟩
  | .hbm, ⟨7, _⟩ => ⟨S3x3, .f32⟩
  | .hbm, ⟨8, _⟩ => ⟨S3x3, .f32⟩
  | .hbm, ⟨9, _⟩ => ⟨S3x3, .f32⟩
  | .hbm, ⟨10, _⟩ => ⟨S3x3, .f32⟩
  | .hbm, ⟨11, _⟩ => ⟨S3x3, .f32⟩
  | .hbm, ⟨12, _⟩ => ⟨S3x3, .f32⟩
  | .hbm, ⟨13, _⟩ => ⟨S3x3, .f32⟩
  | .hbm, ⟨14, _⟩ => ⟨S3x3, .f32⟩
  | .hbm, ⟨15, _⟩ => ⟨S3x3, .f32⟩
  | .hbm, ⟨16, _⟩ => ⟨S3x3, .f32⟩
  | .hbm, ⟨17, _⟩ => ⟨S3x3, .f32⟩
  | .hbm, ⟨18, _⟩ => ⟨S3x3, .f32⟩
  | _, _ => ⟨S3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  dot_S3x3_S3x3_S3x3_1_0_0_1_n_n_wf : DotDims.WF S3x3 S3x3 S3x3 [1] [0] [0] [1] [] []

variable [Facts₀]

def dot_S3x3_S3x3_S3x3_1_0_0_1_n_n : DotDims S3x3 S3x3 S3x3 where
  lhsContracting := [1]
  rhsContracting := [0]
  lhsNonContracting := [0]
  rhsNonContracting := [1]
  lhsBatch := []
  rhsBatch := []
  wf := dot_S3x3_S3x3_S3x3_1_0_0_1_n_n_wf

class Facts : Prop extends Facts₀ where

variable [Facts]
-- ==== Proof.FrameB.lean ====
/-
  The run of the kernel program as printed, at any float instance (the claim reads it at the word-level one): the
  program is seven host operations — each of the six 3 × 3 arguments re-shaped to 1 × 3 × 3, and the six stacked into one
  6 × 3 × 3 array — followed by one call of the kernel with no grid. The call stages the stacked array whole, runs the body
  once, and writes the 3 × 3 result back. The body loads the six layers of the stack, computes, and stores the whole
  result block once. The arguments are written by no operation, so they end as launched.
-/
import proofs.«154225_j39676907881133_2_alg».proof.Proof.Gen.Kernel.Launch
import proofs.«154225_j39676907881133_2_alg».proof.Proof.Gen.Kernel.Skeleton
import proofs.«154225_j39676907881133_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- The buffers of core `c` when the call is entered: the launch contents after the seven host operations (six
    re-shapings to `1 × 3 × 3` and their stacking). -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is the host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at the (one) point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S6x3x3 := Rect.unit (s := S6x3x3) ![0, 0, 0] S1x3x3.size inb_S6x3x3_S1x3x3_0_0_0
abbrev rIn1 : Rect S6x3x3 := Rect.unit (s := S6x3x3) ![1, 0, 0] S1x3x3.size inb_S6x3x3_S1x3x3_1_0_0
abbrev rIn2 : Rect S6x3x3 := Rect.unit (s := S6x3x3) ![2, 0, 0] S1x3x3.size inb_S6x3x3_S1x3x3_2_0_0
abbrev rIn3 : Rect S6x3x3 := Rect.unit (s := S6x3x3) ![3, 0, 0] S1x3x3.size inb_S6x3x3_S1x3x3_3_0_0
abbrev rIn4 : Rect S6x3x3 := Rect.unit (s := S6x3x3) ![4, 0, 0] S1x3x3.size inb_S6x3x3_S1x3x3_4_0_0
abbrev rIn5 : Rect S6x3x3 := Rect.unit (s := S6x3x3) ![5, 0, 0] S1x3x3.size inb_S6x3x3_S1x3x3_5_0_0
abbrev rOut : Rect S3x3 := Rect.unit (s := S3x3) ![0, 0] S3x3.size inb_S3x3_S3x3_0_0

/-! ## What the body leaves in the output window's buffer -/

/-- The value the body stores, from the stacked input block: the six `1 × 3 × 3` layers loaded, and the chain of products
    and sums of the layers (the named pieces of the body's arithmetic composed as the body composes them). -/
def stored (x0 : Vec F S6x3x3 .f32) : Vec F S3x3 .f32 :=
  k0_pay1 (k0_pay4 (View.ld x0 rIn2)) (k0_pay7 (View.ld x0 rIn5)) (k0_pay8 (View.ld x0 rIn0) (View.ld x0 rIn2))
    (k0_pay12 (k0_pay9 (View.ld x0 rIn1) (View.ld x0 rIn3)) (k0_pay10 (View.ld x0 rIn1)) (k0_pay11 (View.ld x0 rIn3)))
    (k0_pay13 (k0_pay6 (View.ld x0 rIn4)) (k0_pay7 (View.ld x0 rIn5)))
    (k0_pay14 (k0_pay2 (View.ld x0 rIn0)) (k0_pay3 (View.ld x0 rIn1)) (k0_pay6 (View.ld x0 rIn4)) (k0_pay7 (View.ld x0 rIn5)))
    (k0_pay15 (k0_pay4 (View.ld x0 rIn2))) (k0_pay16 (k0_pay7 (View.ld x0 rIn5)))

/-- The output window's staging buffer after the body: its one store, of the whole `3 × 3` block. -/
def out0_1 (x0 : Vec F S6x3x3 .f32) : Vec F S3x3 .f32 :=
  View.canon [⟨rOut, stored x0⟩]

/-- The one store covers the buffer. -/
theorem cover0_1 (p0 : Vec F S3x3 .f32) (y : S3x3.Idx) :
    ∃ pc ∈ ([⟨rOut, p0⟩] : List (View.Piece (Elt F) S3x3 .f32)), y ∈ pc.1.set :=
  View.cover_of_tiled [⟨rOut, p0⟩] S3x3.size (by rfl) y

/-! ## The body's triple -/

set_option maxHeartbeats 1000000 in
/-- The body on whole staging buffers, the input's at contents `x0` and the output's at anything, runs to the
    continuation holding the input's as it was and the output's at `out0_1 x0`. -/
theorem sound_kernel (c : Dev nD) (E : Set ℕ) (arg0 : Memref sig .tc .vmem S6x3x3 .f32) (harg0 : arg0.IsWhole) (arg1 : Memref sig .tc .vmem S3x3 .f32) (harg1 : arg1.IsWhole)
    (x0 : Vec F S6x3x3 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__chain_kernel arg0 harg0 arg1 harg1) K := by
  simp only [cc0__chain_kernel_eq_skeleton]; unfold cc0__chain_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The call's proof data -/

/-- After the body the input's buffer holds its block and the output's holds `out0_1` of the input block; the body
    uses nothing else, owes nothing, and holds its buffers whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault, the stacked array and the result array ending
    at what the proof data says and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
/-- After the run argument 1 is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run argument 2 is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run argument 3 is as launched: no window stages it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run argument 4 is as launched: no window stages it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run argument 5 is as launched: no window stages it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run the result array is what the one point wrote back. -/
theorem post1 (r : PUnit × MemSt nD τ sig (Elt F)) (h : Pipeline.FramePost cfgs (dats m) 0 (V m) r) (c : Dev nD) :
    r.2.mem ((c : Thread nD τ).loc main_v7) = (dats m 0 c).arrAt 1 cfg0.N :=
  (h c).1 1

/-- The run with the result array named and the arguments unchanged. -/
theorem run_blocks : θ_run defs (onTc (τ := τ) (main (F := F))) ⟨m, fun _ => 0, ρ⟩ fun r => ∀ c : Dev nD,
      r.2.mem ((c : Thread nD τ).loc main_v7) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post1 m r h c, kept_main_arg0 m r h c, kept_main_arg1 m r h c, kept_main_arg2 m r h c,
      kept_main_arg3 m r h c, kept_main_arg4 m r h c, kept_main_arg5 m r h c⟩)
    (run_main m ρ)

/-- The program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_blocks m ρ)

end Cert.Kernel.Hand

end
-- ==== Proof.FrameI.lean ====
/-
  The run of the idealized kernel program, at any float instance: the program is seven host operations — each of the six
  3 × 3 arguments re-shaped to 1 × 3 × 3, and the six stacked into one 6 × 3 × 3 array — followed by one call of the
  kernel with no grid. The call stages the stacked array whole, runs the body once, and writes the 3 × 3 result back.
  The body loads the six layers of the stack, computes, and stores the whole result block once; what it stores is named
  (`stored`), so that the result array after the run is a known function of the stacked array. The arguments are
  written by no operation, so they end as launched.
-/
import proofs.«154225_j39676907881133_2_alg».proof.Proof.Gen.KernelIdeal.Launch
import proofs.«154225_j39676907881133_2_alg».proof.Proof.Gen.KernelIdeal.Skeleton
import proofs.«154225_j39676907881133_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- The buffers of core `c` when the call is entered: the launch contents after the seven host operations (six
    re-shapings to `1 × 3 × 3` and their stacking). -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is the host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at the (one) point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S6x3x3 := Rect.unit (s := S6x3x3) ![0, 0, 0] S1x3x3.size inb_S6x3x3_S1x3x3_0_0_0
abbrev rIn1 : Rect S6x3x3 := Rect.unit (s := S6x3x3) ![1, 0, 0] S1x3x3.size inb_S6x3x3_S1x3x3_1_0_0
abbrev rIn2 : Rect S6x3x3 := Rect.unit (s := S6x3x3) ![2, 0, 0] S1x3x3.size inb_S6x3x3_S1x3x3_2_0_0
abbrev rIn3 : Rect S6x3x3 := Rect.unit (s := S6x3x3) ![3, 0, 0] S1x3x3.size inb_S6x3x3_S1x3x3_3_0_0
abbrev rIn4 : Rect S6x3x3 := Rect.unit (s := S6x3x3) ![4, 0, 0] S1x3x3.size inb_S6x3x3_S1x3x3_4_0_0
abbrev rIn5 : Rect S6x3x3 := Rect.unit (s := S6x3x3) ![5, 0, 0] S1x3x3.size inb_S6x3x3_S1x3x3_5_0_0
abbrev rOut : Rect S3x3 := Rect.unit (s := S3x3) ![0, 0] S3x3.size inb_S3x3_S3x3_0_0

/-! ## What the body leaves in the output window's buffer -/

/-- The value the body stores, from the stacked input block: the six `1 × 3 × 3` layers loaded, and the chain of products
    and sums of the layers (the named pieces of the body's arithmetic composed as the body composes them). -/
def stored (x0 : Vec F S6x3x3 .f32) : Vec F S3x3 .f32 :=
  k0_pay1 (k0_pay4 (View.ld x0 rIn2)) (k0_pay7 (View.ld x0 rIn5)) (k0_pay8 (View.ld x0 rIn0) (View.ld x0 rIn2))
    (k0_pay12 (k0_pay9 (View.ld x0 rIn1) (View.ld x0 rIn3)) (k0_pay10 (View.ld x0 rIn1)) (k0_pay11 (View.ld x0 rIn3)))
    (k0_pay13 (k0_pay6 (View.ld x0 rIn4)) (k0_pay7 (View.ld x0 rIn5)))
    (k0_pay14 (k0_pay2 (View.ld x0 rIn0)) (k0_pay3 (View.ld x0 rIn1)) (k0_pay6 (View.ld x0 rIn4)) (k0_pay7 (View.ld x0 rIn5)))
    (k0_pay15 (k0_pay4 (View.ld x0 rIn2))) (k0_pay16 (k0_pay7 (View.ld x0 rIn5)))

/-- The output window's staging buffer after the body: its one store, of the whole `3 × 3` block. -/
def out0_1 (x0 : Vec F S6x3x3 .f32) : Vec F S3x3 .f32 :=
  View.canon [⟨rOut, stored x0⟩]

/-- The one store covers the buffer. -/
theorem cover0_1 (p0 : Vec F S3x3 .f32) (y : S3x3.Idx) :
    ∃ pc ∈ ([⟨rOut, p0⟩] : List (View.Piece (Elt F) S3x3 .f32)), y ∈ pc.1.set :=
  View.cover_of_tiled [⟨rOut, p0⟩] S3x3.size (by rfl) y

/-! ## The body's triple -/

set_option maxHeartbeats 1000000 in
/-- The body on whole staging buffers, the input's at contents `x0` and the output's at anything, runs to the
    continuation holding the input's as it was and the output's at `out0_1 x0`. -/
theorem sound_kernel (c : Dev nD) (E : Set ℕ) (arg0 : Memref sig .tc .vmem S6x3x3 .f32) (harg0 : arg0.IsWhole) (arg1 : Memref sig .tc .vmem S3x3 .f32) (harg1 : arg1.IsWhole)
    (x0 : Vec F S6x3x3 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__chain_kernel arg0 harg0 arg1 harg1) K := by
  simp only [cc0__chain_kernel_eq_skeleton]; unfold cc0__chain_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The call's proof data -/

/-- After the body the input's buffer holds its block and the output's holds `out0_1` of the input block; the body
    uses nothing else, owes nothing, and holds its buffers whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault, the stacked array and the result array ending
    at what the proof data says and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: no window stages it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
/-- After the run argument 1 is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run argument 2 is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run argument 3 is as launched: no window stages it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run argument 4 is as launched: no window stages it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run argument 5 is as launched: no window stages it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run the result array is what the one point wrote back. -/
theorem post1 (r : PUnit × MemSt nD τ sig (Elt F)) (h : Pipeline.FramePost cfgs (dats m) 0 (V m) r) (c : Dev nD) :
    r.2.mem ((c : Thread nD τ).loc main_v7) = (dats m 0 c).arrAt 1 cfg0.N :=
  (h c).1 1

/-- The run with the result array named and the arguments unchanged. -/
theorem run_blocks : θ_run defs (onTc (τ := τ) (main (F := F))) ⟨m, fun _ => 0, ρ⟩ fun r => ∀ c : Dev nD,
      r.2.mem ((c : Thread nD τ).loc main_v7) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post1 m r h c, kept_main_arg0 m r h c, kept_main_arg1 m r h c, kept_main_arg2 m r h c,
      kept_main_arg3 m r h c, kept_main_arg4 m r h c, kept_main_arg5 m r h c⟩)
    (run_main m ρ)

/-- The program runs to the end, faults nowhere, and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_blocks m ρ)

end Cert.KernelIdeal.Hand

end
-- ==== Proof.LibHostSix.lean ====
/-
  A host operation with SIX operands given as a literal family — a concatenate of six pieces — in a straight line of
  host operations.

  The contents of a buffer after a line of host operations is computed by rewriting each operation's result at its own
  result buffer to its function's value of its operands' contents, and at any other buffer to what was there. For an
  operation with a family of operands the result is the function of `fun k => (contents of operand k)`; under that
  binder operand `k` is no literal buffer and the rewriting stops. `nary6_result` states the result over the six
  operands' contents each at its own literal buffer, so that the rewriting goes on below them. `concat6` says that six
  pieces which agree one by one concatenate to the same array, and `concat6_unit_apply` reads a concatenation of six
  pieces of extent one along the leading axis of a rank-three array at coordinates: entry (k, i, j) is entry (0, i, j)
  of piece k.
-/
import Idealize.ShloMosaic.Lib.StableHlo.Run
import Idealize.ShloMosaic.Lib.Pipeline.Value
import Idealize.ShloMosaic.Lib.ValueIdx
import Mathlib.Data.Fin.VecNotation

namespace Cert.HostSix

open Idealize.ShloMosaic Idealize.ShloMosaic.StableHlo Idealize.SL.Sem Idealize.ShloMosaic.ValueIdx

section Result
variable {τ : Topo} {sig : RefSig} {Val : EltTy → Type}
variable {x0 x1 x2 x3 x4 x5 y : Ref sig .tc}

/-- The result of an operation over the literal family `![x0, …, x5]` of operand buffers, with each operand's
    contents at its own buffer. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same lemma in the form a single simplification pass uses (the result buffer not used as an index key). -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Result

/-- The one-pass computation of a buffer's contents after a line of host operations, with the six-operand lemma. -/
macro "after_results6" : tactic =>
  `(tactic| (simp (disch := decide) only [after_cons, after_nil,
      nullary_result', unary_result', binary_result', ternary_result', quaternary_result', reshape_result', nary6_result',
      nullary_result_ne', unary_result_ne', binary_result_ne', ternary_result_ne', quaternary_result_ne', reshape_result_ne',
      nary_result_ne']))

/-- Six pieces that agree one by one concatenate to the same array. -/
theorem concat6 {α : Type} {S' S : Shape} (ax : Fin S.rank) (a0 a1 a2 a3 a4 a5 b0 b1 b2 b3 b4 b5 : S'.Idx → α)
    (h : Shape.Concatenates [S', S', S', S', S', S'] S ax)
    (e0 : a0 = b0) (e1 : a1 = b1) (e2 : a2 = b2) (e3 : a3 = b3) (e4 : a4 = b4) (e5 : a5 = b5) :
    concatenate S ax [⟨S', a0⟩, ⟨S', a1⟩, ⟨S', a2⟩, ⟨S', a3⟩, ⟨S', a4⟩, ⟨S', a5⟩] h
      = concatenate S ax [⟨S', b0⟩, ⟨S', b1⟩, ⟨S', b2⟩, ⟨S', b3⟩, ⟨S', b4⟩, ⟨S', b5⟩] h := by
  subst e0 e1 e2 e3 e4 e5; rfl

/-- Six `1 × a × b` pieces stacked along the leading axis: entry (k, i, j) of the stack is entry (0, i, j) of piece k. -/
theorem concat6_unit_apply {α : Type} {a b : ℕ} (f : Fin 6 → ((⟨3, ![1, a, b]⟩ : Shape).Idx → α))
    (h : Shape.Concatenates [⟨3, ![1, a, b]⟩, ⟨3, ![1, a, b]⟩, ⟨3, ![1, a, b]⟩, ⟨3, ![1, a, b]⟩, ⟨3, ![1, a, b]⟩, ⟨3, ![1, a, b]⟩]
      (⟨3, ![6, a, b]⟩ : Shape) 0)
    (k : Fin 6) (i : Fin a) (j : Fin b) :
    concatenate (⟨3, ![6, a, b]⟩ : Shape) 0
        [⟨⟨3, ![1, a, b]⟩, f 0⟩, ⟨⟨3, ![1, a, b]⟩, f 1⟩, ⟨⟨3, ![1, a, b]⟩, f 2⟩, ⟨⟨3, ![1, a, b]⟩, f 3⟩, ⟨⟨3, ![1, a, b]⟩, f 4⟩,
          ⟨⟨3, ![1, a, b]⟩, f 5⟩] h (ix3 k i j)
      = f k (ix3 (0 : Fin 1) i j) :=
  concatenate_ofFn_unit_apply (t := ⟨3, ![6, a, b]⟩) (s₁ := ⟨3, ![1, a, b]⟩) 0 f h rfl rfl (ix3 k i j) k rfl (ix3 (0 : Fin 1) i j)
    (fun ax hax => by
      match ax with
      | ⟨0, _⟩ => exact absurd rfl hax
      | ⟨1, _⟩ => rfl
      | ⟨2, _⟩ => rfl)

end Cert.HostSix
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibOuter3.lean ====
/-
  A 3 × 3 matrix product written as three outer products added up, on the extended reals.

  Column `k` of `A` (a 3 × 1 slice) laid along the three columns, times row `k` of `B` (a 1 × 3 slice) laid down the three
  rows, is the matrix whose entry (p, q) is `A p k · B k q`. Adding the three of them, for k = 0, 1, 2, from the left gives
  at (p, q) the sum `A p 0 · B 0 q + A p 1 · B 1 q + A p 2 · B 2 q`, which is the sum over `k : Fin 3` of `A p k · B k q`:
  entry (p, q) of the product. Only the definition of a sum over three indices is used, so nothing is asked of the
  entries (they may be infinite).
-/
import Idealize.ShloMosaic.Lib.ValueIdx
import Idealize.ShloMosaic.Lib.ValueLayout
import Idealize.ShloMosaic.Lib.Pipeline.Value
import Idealize.ShloMosaic.PureOps.Ideal
import proofs.«154225_j39676907881133_2_alg».proof.Proof.LibKeepdims

open scoped BigOperators

noncomputable section

namespace Cert.Outer3

open Idealize.ShloMosaic Idealize.ShloMosaic.ValueIdx

abbrev M33 : Shape := ⟨2, ![3, 3]⟩
abbrev M31 : Shape := ⟨2, ![3, 1]⟩
abbrev M13 : Shape := ⟨2, ![1, 3]⟩

/-- The product of two 3 × 3 arrays of extended reals, entry by entry: the sum over the inner index. -/
def prod3 (A B : M33.Idx → EReal) : M33.Idx → EReal :=
  fun i => ∑ k : Fin 3, A (ix2 (i 0) k) * B (ix2 k (i 1))

/-- One outer product: column `k` of `A` along the columns times row `k` of `B` down the rows, at (p, q). -/
theorem term_apply (A B : FVec Ideal M33 .f32) (o : ℕ) (k : Fin 3) (hk : k.val = o)
    (hc : M33.Slices ![0, o] M31) (hr : M33.Slices ![o, 0] M13) (hbc : M31.Broadcasts M33) (hbr : M13.Broadcasts M33)
    (p q : Fin 3) :
    mulf (broadcastTo M33 (extractStridedSlice M31 ![0, o] A hc) hbc)
        (broadcastTo M33 (extractStridedSlice M13 ![o, 0] B hr) hbr) (ix2 p q)
      = A (ix2 p k) * B (ix2 k q) := by
  rw [mulf_apply, Cert.Keepdims.broadcastTo_a1_ab_apply, broadcastTo_1b_ab_apply,
    slice2_axis1_apply o A hc p 0 k (by rw [hk]; rfl), slice2_axis0_apply o B hr 0 q k (by rw [hk]; rfl)]

/-- The three outer products added from the left are the product. -/
theorem outer3_eq (A B : FVec Ideal M33 .f32)
    (hc0 : M33.Slices ![0, 0] M31) (hr0 : M33.Slices ![0, 0] M13)
    (hc1 : M33.Slices ![0, 1] M31) (hr1 : M33.Slices ![1, 0] M13)
    (hc2 : M33.Slices ![0, 2] M31) (hr2 : M33.Slices ![2, 0] M13)
    (hbc : M31.Broadcasts M33) (hbr : M13.Broadcasts M33) :
    addf (addf
        (mulf (broadcastTo M33 (extractStridedSlice M31 ![0, 0] A hc0) hbc) (broadcastTo M33 (extractStridedSlice M13 ![0, 0] B hr0) hbr))
        (mulf (broadcastTo M33 (extractStridedSlice M31 ![0, 1] A hc1) hbc) (broadcastTo M33 (extractStridedSlice M13 ![1, 0] B hr1) hbr)))
        (mulf (broadcastTo M33 (extractStridedSlice M31 ![0, 2] A hc2) hbc) (broadcastTo M33 (extractStridedSlice M13 ![2, 0] B hr2) hbr))
      = prod3 A B := by
  funext i
  obtain ⟨p, q, rfl⟩ : ∃ (p q : Fin 3), i = ix2 p q := ⟨i 0, i 1, eq_ix2 i⟩
  rw [addf_apply, addf_apply, term_apply A B 0 0 rfl, term_apply A B 1 1 rfl, term_apply A B 2 2 rfl]
  show _ = ∑ k : Fin 3, A (ix2 p k) * B (ix2 k q)
  rw [Fin.sum_univ_three]

end Cert.Outer3

end
-- ==== Proof.Chain.lean ====
/-
  The function both programs compute, on 3 × 3 arrays of extended reals.

  With a = x0·x2, b = x1·x3, c = x4·x5 (matrix products), s = (a + b) + c and u = (x0·x5 + x1·x4) + x2·x5, the result is
  the product (s + s)·(u + s). Sums are entry by entry, products are `prod3` (the sum over the inner index); the
  grouping of every sum is the programs' own, so the two programs' terms become this term by rewriting each of their
  seven products to `prod3` and by nothing else.
-/
import proofs.«154225_j39676907881133_2_alg».proof.Proof.LibOuter3

noncomputable section

namespace Cert.Chain

open Idealize.ShloMosaic Cert.Outer3

/-- s = (x0·x2 + x1·x3) + x4·x5. -/
def sumS (x0 x1 x2 x3 x4 x5 : FVec Ideal M33 .f32) : FVec Ideal M33 .f32 :=
  addf (addf (prod3 x0 x2) (prod3 x1 x3)) (prod3 x4 x5)

/-- u = (x0·x5 + x1·x4) + x2·x5. -/
def sumU (x0 x1 x2 x4 x5 : FVec Ideal M33 .f32) : FVec Ideal M33 .f32 :=
  addf (addf (prod3 x0 x5) (prod3 x1 x4)) (prod3 x2 x5)

/-- (s + s)·(u + s). -/
def chain (x0 x1 x2 x3 x4 x5 : FVec Ideal M33 .f32) : FVec Ideal M33 .f32 :=
  prod3 (addf (sumS x0 x1 x2 x3 x4 x5) (sumS x0 x1 x2 x3 x4 x5))
    (addf (sumU x0 x1 x2 x4 x5) (sumS x0 x1 x2 x3 x4 x5))

end Cert.Chain

end
-- ==== Proof.KernelValue.lean ====
/-
  What the idealized kernel program's result array holds after the run, on the extended reals.

  The stacked 6 × 3 × 3 array the call stages has, at (k, p, q), entry (p, q) of argument k: argument k re-shaped to
  1 × 3 × 3 is layer k of the stack. The body loads layer k (the unit-stride box at offset (k, 0, 0) of extent 1 × 3 × 3) and
  drops its leading unit axis, which gives argument k back. Each of the body's seven 3 × 3 products is spelt as three outer
  products added up, which is the product; so the value the body stores is `chain` of the six arguments. The call has one
  point and both windows are whole arrays, so what the point writes back is the whole result array.
-/
import proofs.«154225_j39676907881133_2_alg».proof.Proof.FrameI
import proofs.«154225_j39676907881133_2_alg».proof.Proof.LibHostSix
import proofs.«154225_j39676907881133_2_alg».proof.Proof.Chain
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx Idealize.ShloMosaic.StableHlo
open Idealize.ShloMosaic.Pipeline (Dat)
open Cert.Outer3 Cert.HostSix Cert.Chain

variable (m : (ℓ : Loc nD τ sig) → Buf (Elt Ideal) ℓ) (ρ : Dev nD → PrngReg)

/-! ## The stacked array -/

/-- Six 3 × 3 arrays, each re-shaped to 1 × 3 × 3, stacked along the leading axis. -/
def stack (a0 a1 a2 a3 a4 a5 : FVec Ideal S3x3 .f32) : Vec Ideal S6x3x3 .f32 :=
  concatenate S6x3x3 0 [⟨S1x3x3, broadcastInDim S1x3x3 ![1, 2] bcast_S3x3_S1x3x3_1_2 a0⟩, ⟨S1x3x3, broadcastInDim S1x3x3 ![1, 2] bcast_S3x3_S1x3x3_1_2 a1⟩, ⟨S1x3x3, broadcastInDim S1x3x3 ![1, 2] bcast_S3x3_S1x3x3_1_2 a2⟩, ⟨S1x3x3, broadcastInDim S1x3x3 ![1, 2] bcast_S3x3_S1x3x3_1_2 a3⟩, ⟨S1x3x3, broadcastInDim S1x3x3 ![1, 2] bcast_S3x3_S1x3x3_1_2 a4⟩, ⟨S1x3x3, broadcastInDim S1x3x3 ![1, 2] bcast_S3x3_S1x3x3_1_2 a5⟩]
    concatenates_S1x3x3_S1x3x3_S1x3x3_S1x3x3_S1x3x3_S1x3x3_S6x3x3_d0

/-- The array the call stages is the stack of the six arguments as launched. -/
theorem V_stack (c : Dev nD) : (V m c main_v6 : S6x3x3.Idx → EReal) = stack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [V, hostOps0]
  after_results6
  rfl

/-- A 3 × 3 array re-shaped to 1 × 3 × 3, at (0, p, q), is the array at (p, q). -/
theorem relay_apply (a : FVec Ideal S3x3 .f32) (p q : Fin 3) :
    broadcastInDim S1x3x3 ![1, 2] bcast_S3x3_S1x3x3_1_2 a (ix3 (0 : Fin 1) p q) = a (ix2 p q) :=
  broadcastInDim_apply _ _ a (ix3 (0 : Fin 1) p q) (ix2 p q) (fun ax => by
    match ax with
    | ⟨0, _⟩ => rfl
    | ⟨1, _⟩ => rfl)

/-- Entry (k, p, q) of the stack is entry (p, q) of array k. -/
theorem stack_apply (a : Fin 6 → FVec Ideal S3x3 .f32) (k : Fin 6) (p q : Fin 3) :
    stack (a 0) (a 1) (a 2) (a 3) (a 4) (a 5) (ix3 k p q) = a k (ix2 p q) := by
  unfold stack
  exact (concat6_unit_apply (fun n => broadcastInDim S1x3x3 (![1, 2] : Fin 2 → Fin S1x3x3.rank) bcast_S3x3_S1x3x3_1_2 (a n))
    concatenates_S1x3x3_S1x3x3_S1x3x3_S1x3x3_S1x3x3_S1x3x3_S6x3x3_d0 k p q).trans (relay_apply (a k) p q)

/-- Layer `k` of a 6 × 3 × 3 array, loaded as a 1 × 3 × 3 box at offset (k, 0, 0) and its unit axis dropped, at (p, q), is
    the array at (k, p, q). -/
theorem layer_apply (X : Vec Ideal S6x3x3 .f32) (o : ℕ) (k : Fin 6) (hk : k.val = o)
    (inb : ∀ a, (![o, 0, 0] : Fin 3 → Nat) a + S1x3x3.size a ≤ S6x3x3.size a) (p q : Fin 3) :
    shapeCast S3x3 (View.ld X (Rect.unit (s := S6x3x3) ![o, 0, 0] S1x3x3.size inb)) shapeCasts_S1x3x3_S3x3 (ix2 p q)
      = X (ix3 k p q) := by
  rw [shapeCast_1ab_ab_apply]
  show X ((Rect.unit (s := S6x3x3) ![o, 0, 0] S1x3x3.size inb).idx (ix3 (0 : Fin 1) p q)) = X (ix3 k p q)
  congr 1
  funext ax
  apply Fin.ext
  match ax with
  | ⟨0, _⟩ => show o + 1 * 0 = k.val; omega
  | ⟨1, _⟩ => show 0 + 1 * p.val = p.val; omega
  | ⟨2, _⟩ => show 0 + 1 * q.val = q.val; omega

/-- Layer `k` of the stack, loaded and its unit axis dropped, is array `k`. -/
theorem cast_layer (a : Fin 6 → FVec Ideal S3x3 .f32) (o : ℕ) (k : Fin 6) (hk : k.val = o)
    (inb : ∀ ax, (![o, 0, 0] : Fin 3 → Nat) ax + S1x3x3.size ax ≤ S6x3x3.size ax) :
    shapeCast S3x3 (View.ld (stack (a 0) (a 1) (a 2) (a 3) (a 4) (a 5)) (Rect.unit (s := S6x3x3) ![o, 0, 0] S1x3x3.size inb))
        shapeCasts_S1x3x3_S3x3 = a k := by
  funext i
  obtain ⟨p, q, rfl⟩ : ∃ (p q : Fin 3), i = ix2 p q := ⟨i 0, i 1, eq_ix2 i⟩
  rw [layer_apply _ o k hk inb p q, stack_apply]

theorem cast_layer0 (a0 a1 a2 a3 a4 a5 : FVec Ideal S3x3 .f32) :
    shapeCast S3x3 (View.ld (stack a0 a1 a2 a3 a4 a5) rIn0) shapeCasts_S1x3x3_S3x3 = a0 :=
  cast_layer ![a0, a1, a2, a3, a4, a5] 0 0 rfl inb_S6x3x3_S1x3x3_0_0_0
theorem cast_layer1 (a0 a1 a2 a3 a4 a5 : FVec Ideal S3x3 .f32) :
    shapeCast S3x3 (View.ld (stack a0 a1 a2 a3 a4 a5) rIn1) shapeCasts_S1x3x3_S3x3 = a1 :=
  cast_layer ![a0, a1, a2, a3, a4, a5] 1 1 rfl inb_S6x3x3_S1x3x3_1_0_0
theorem cast_layer2 (a0 a1 a2 a3 a4 a5 : FVec Ideal S3x3 .f32) :
    shapeCast S3x3 (View.ld (stack a0 a1 a2 a3 a4 a5) rIn2) shapeCasts_S1x3x3_S3x3 = a2 :=
  cast_layer ![a0, a1, a2, a3, a4, a5] 2 2 rfl inb_S6x3x3_S1x3x3_2_0_0
theorem cast_layer3 (a0 a1 a2 a3 a4 a5 : FVec Ideal S3x3 .f32) :
    shapeCast S3x3 (View.ld (stack a0 a1 a2 a3 a4 a5) rIn3) shapeCasts_S1x3x3_S3x3 = a3 :=
  cast_layer ![a0, a1, a2, a3, a4, a5] 3 3 rfl inb_S6x3x3_S1x3x3_3_0_0
theorem cast_layer4 (a0 a1 a2 a3 a4 a5 : FVec Ideal S3x3 .f32) :
    shapeCast S3x3 (View.ld (stack a0 a1 a2 a3 a4 a5) rIn4) shapeCasts_S1x3x3_S3x3 = a4 :=
  cast_layer ![a0, a1, a2, a3, a4, a5] 4 4 rfl inb_S6x3x3_S1x3x3_4_0_0
theorem cast_layer5 (a0 a1 a2 a3 a4 a5 : FVec Ideal S3x3 .f32) :
    shapeCast S3x3 (View.ld (stack a0 a1 a2 a3 a4 a5) rIn5) shapeCasts_S1x3x3_S3x3 = a5 :=
  cast_layer ![a0, a1, a2, a3, a4, a5] 5 5 rfl inb_S6x3x3_S1x3x3_5_0_0

/-! ## The value the body stores -/

/-- From the stack of six arrays the body stores `chain` of them: every layer is its array, and every product spelt as
    three outer products is the product. -/
theorem stored_eq (a0 a1 a2 a3 a4 a5 : FVec Ideal S3x3 .f32) :
    stored (F := Ideal) (stack a0 a1 a2 a3 a4 a5) = chain a0 a1 a2 a3 a4 a5 := by
  unfold stored
  simp only [k0_pay1, k0_pay2, k0_pay3, k0_pay4, k0_pay5, k0_pay6, k0_pay7, k0_pay8, k0_pay9, k0_pay10, k0_pay11, k0_pay12,
    k0_pay13, k0_pay14, k0_pay15, k0_pay16, outer3_eq]
  refine Eq.trans ?_ (congr (congr (congr (congr (congr (congrArg chain (cast_layer0 a0 a1 a2 a3 a4 a5)) (cast_layer1 a0 a1 a2 a3 a4 a5))
    (cast_layer2 a0 a1 a2 a3 a4 a5)) (cast_layer3 a0 a1 a2 a3 a4 a5)) (cast_layer4 a0 a1 a2 a3 a4 a5)) (cast_layer5 a0 a1 a2 a3 a4 a5))
  rfl

/-! ## From the one block to the array -/

theorem hz2 : (![0, 0] : Fin 2 → Nat) = fun _ => 0 := funext fun a => by fin_cases a <;> rfl

/-- The input window's block is the whole stacked array. -/
theorem iblk_eq (c : Dev nD) (t : Fin cfg0.N) :
    (iblk m c 0 t : S6x3x3.Idx → EReal) = stack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [← V_stack m c]
  funext j
  show V m c main_v6 (((cfg0.win 0).blk t).view.emb j) = V m c main_v6 j
  congr 1
  funext ax
  apply Fin.ext
  match ax with
  | ⟨0, _⟩ => show 0 * 6 + 1 * (j 0).val = (j 0).val; omega
  | ⟨1, _⟩ => show 0 * 3 + 1 * (j 1).val = (j 1).val; omega
  | ⟨2, _⟩ => show 0 * 3 + 1 * (j 2).val = (j 2).val; omega

/-- What the one point writes back is the whole of `chain` of the arguments. -/
theorem flushed_eq (c : Dev nD) (t : Fin cfg0.N) :
    (dats m 0 c).flushed 1 t = ((cfg0.win 1).blk t).view.read (Elt Ideal) (chain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 1).cut (grid0.coords t) ((dats m 0 c).after 1 t) = _
  rw [after0_1]
  unfold out0_1
  rw [View.canon_unit_zero hz2, iblk_eq, stored_eq]
  funext j
  show chain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j = chain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 1).blk t).view.emb j)
  congr 1
  funext ax
  apply Fin.ext
  match ax with
  | ⟨0, _⟩ => show (j 0).val = 0 * 3 + 1 * (j 0).val; omega
  | ⟨1, _⟩ => show (j 1).val = 0 * 3 + 1 * (j 1).val; omega

/-- Every index of the result array is in the one point's block. -/
theorem covered (i : S3x3.Idx) : ∃ t : Fin cfg0.N, (cfg0.win 1).flush t = true ∧ i ∈ ((cfg0.win 1).blk t).view.set := by
  refine ⟨t0_0, flush0_1 t0_0, ?_⟩
  show i ∈ ((View.whole main_v7).slice (win0_1.rect t0_0)).set
  rw [View.set_slice_whole, Rect.mem_set_unit]
  intro ax
  match ax with
  | ⟨0, _⟩ => show 0 * 3 ≤ (i 0).val ∧ (i 0).val < 0 * 3 + 3; have h0 : (i 0).val < 3 := (i 0).isLt; omega
  | ⟨1, _⟩ => show 0 * 3 ≤ (i 1).val ∧ (i 1).val < 0 * 3 + 3; have h1 : (i 1).val < 3 := (i 1).isLt; omega

/-- The result array after the run is `chain` of the six arguments as launched. -/
theorem final (c : Dev nD) : (dats m 0 c).arrAt 1 cfg0.N = chain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 1 _ (fun t _ => flushed_eq m c t) covered

/-- The run of the idealized kernel program: it ends with the result array at `chain` of the arguments and the arguments
    unchanged. -/
theorem run : θ_run defs (onTc (τ := τ) (main (F := Ideal))) ⟨m, fun _ => 0, ρ⟩ fun r => ∀ c : Dev nD,
      r.2.mem ((c : Thread nD τ).loc main_v7) = chain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.HandValue

end
-- ==== Proof.RefValue.lean ====
/-
  What the idealized reference computes, on the extended reals: the host's 3 × 3 matrix product is, entry by entry, the sum
  over the inner index of the products of the entries (`prod3`), and the reference's composed term — seven such products
  and six entrywise sums — is `chain` of its six arguments, with the same grouping of every sum.
-/
import proofs.«154225_j39676907881133_2_alg».proof.Proof.Gen.ReferenceIdeal.Run
import proofs.«154225_j39676907881133_2_alg».proof.Proof.Gen.ReferenceIdeal.Read
import proofs.«154225_j39676907881133_2_alg».proof.Proof.Chain

open scoped BigOperators

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Outer3 Cert.Chain

/-- The host's product of two 3 × 3 arrays is `prod3`: entry (p, q) is the sum over `k` of `A p k · B k q`. -/
theorem dot_eq (A B : FVec Ideal S3x3 .f32) :
    Host.dotGeneral dot_S3x3_S3x3_S3x3_1_0_0_1_n_n none A B = prod3 A B := by
  funext i
  have h := Read.val_main_v0_apply A B i
  unfold Read.val_main_v0 at h
  rw [h]
  show _ = ∑ k : Fin 3, A (ix2 (i 0) k) * B (ix2 k (i 1))
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  rw [el, er]
  rfl

/-- The reference's composed term is `chain` of the six arguments. -/
theorem result_eq (x0 x1 x2 x3 x4 x5 : FVec Ideal S3x3 .f32) :
    Host.dotGeneral dot_S3x3_S3x3_S3x3_1_0_0_1_n_n none (addf (addf (addf (Host.dotGeneral dot_S3x3_S3x3_S3x3_1_0_0_1_n_n none x0 x2) (Host.dotGeneral dot_S3x3_S3x3_S3x3_1_0_0_1_n_n none x1 x3)) (Host.dotGeneral dot_S3x3_S3x3_S3x3_1_0_0_1_n_n none x4 x5)) (addf (addf (Host.dotGeneral dot_S3x3_S3x3_S3x3_1_0_0_1_n_n none x0 x2) (Host.dotGeneral dot_S3x3_S3x3_S3x3_1_0_0_1_n_n none x1 x3)) (Host.dotGeneral dot_S3x3_S3x3_S3x3_1_0_0_1_n_n none x4 x5))) (addf (addf (addf (Host.dotGeneral dot_S3x3_S3x3_S3x3_1_0_0_1_n_n none x0 x5) (Host.dotGeneral dot_S3x3_S3x3_S3x3_1_0_0_1_n_n none x1 x4)) (Host.dotGeneral dot_S3x3_S3x3_S3x3_1_0_0_1_n_n none x2 x5)) (addf (addf (Host.dotGeneral dot_S3x3_S3x3_S3x3_1_0_0_1_n_n none x0 x2) (Host.dotGeneral dot_S3x3_S3x3_S3x3_1_0_0_1_n_n none x1 x3)) (Host.dotGeneral dot_S3x3_S3x3_S3x3_1_0_0_1_n_n none x4 x5)))
      = chain x0 x1 x2 x3 x4 x5 := by
  simp only [dot_eq]
  rfl

end Cert.ReferenceIdeal.RefValue

end
-- ==== Proof.lean ====
/-
  A chain of 3 × 3 matrix products and sums, computed by one kernel call on the stack of the six arguments, against the same
  chain written with the host's matrix products.

  With a = x0·x2, b = x1·x3, c = x4·x5, s = (a + b) + c and u = (x0·x5 + x1·x4) + x2·x5, both programs return
  (s + s)·(u + s). The kernel spells each product A·B as three outer products added up, (column k of A) × (row k of B) for
  k = 0, 1, 2; the reference calls the host's matrix product, whose entry (p, q) on the extended reals is the sum over k of
  A p k · B k q. A sum over three indices is its three terms added up, so the two spellings are one function
  (`Cert.Outer3.outer3_eq`, `Cert.ReferenceIdeal.RefValue.dot_eq`), and the sums between the products are grouped the same
  way in both programs: both results are `Cert.Chain.chain` of the arguments. No law that fails at an infinity is used, so
  the precondition (finite inputs) is never opened.

  The kernel program stacks the six arguments into one 6 × 3 × 3 array on the host and calls the kernel once, with no grid:
  its run — termination, no fault, the arguments unchanged, the result array named — is `Cert.Kernel.Hand` /
  `Cert.KernelIdeal.Hand`, and the result array read as `chain` of the arguments is `Cert.KernelIdeal.HandValue.run`. The
  reference's run is the generated one. The idealization rewrote nothing, so `preserves` has nothing to state.
-/
import proofs.«154225_j39676907881133_2_alg».proof.Defs
import proofs.«154225_j39676907881133_2_alg».proof.Proof.Gen.Kernel
import proofs.«154225_j39676907881133_2_alg».proof.Proof.Gen.KernelIdeal
import proofs.«154225_j39676907881133_2_alg».proof.Proof.Gen.ReferenceIdeal
import proofs.«154225_j39676907881133_2_alg».proof.Proof.Gen.Pre_finite_inputs
import proofs.«154225_j39676907881133_2_alg».proof.Proof.FrameB
import proofs.«154225_j39676907881133_2_alg».proof.Proof.KernelValue
import proofs.«154225_j39676907881133_2_alg».proof.Proof.RefValue

noncomputable section

namespace Cert.Proof

open Idealize.ShloMosaic Idealize.SL.Sem

/-- The kernel program as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both idealized programs end with their result arrays at `chain` of the
    arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
